-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x1024, .bf16⟩
  | .hbm, ⟨12, _⟩ => ⟨S8192x1024, .bf16⟩
  | .hbm, ⟨13, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v7) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.Spec.lean ====
/-
  The function both programs compute.

  For two arrays `a b` of 8192 points in 1024 coordinates, the result at `(r, s)` is
  `-log(1 + max(‖a_r‖² + ‖b_s‖² - 2·⟨a_r, b_s⟩, 0))`: the squared distance of point `r` of `a` from point `s` of `b`
  in its expanded form, clamped at zero, under `-log1p`. The squared norms are sums from the zero word, the inner product a
  plain sum, the constants `0.0` and `2.0` kept as their words: the same words on both sides, so they are never evaluated.
  Everything is on the extended reals; no law that needs finiteness is used anywhere.
-/
import Idealize.ShloMosaic.PureOps.Ideal
import Idealize.ShloMosaic.PureOps.Ideal.Laws
import Idealize.ShloMosaic.Lib.ValueIdx

noncomputable section

open scoped BigOperators

namespace Cert.NegLogDist

open Idealize.ShloMosaic Idealize.ShloMosaic.ValueIdx

/-- 8192 points, 1024 coordinates each. -/
abbrev Pts : Shape := ⟨2, ![8192, 1024]⟩
/-- One entry per pair of points. -/
abbrev Pairs : Shape := ⟨2, ![8192, 8192]⟩

/-- The squared norm of point `r`: the sum of its coordinates' squares, from the zero word. -/
def sqNorm (a : Pts.Idx → EReal) (r : Fin 8192) : EReal :=
  Ideal.ofBits .f32 0x00000000#32 + ∑ k : Fin 1024, a (ix2 r k) * a (ix2 r k)

/-- The inner product of point `r` of `a` with point `s` of `b`. -/
def inner (a b : Pts.Idx → EReal) (r s : Fin 8192) : EReal :=
  ∑ k : Fin 1024, a (ix2 r k) * b (ix2 s k)

/-- The result for the pair `(r, s)`. -/
def entry (a b : Pts.Idx → EReal) (r s : Fin 8192) : EReal :=
  -(Ideal.log1p (max ((sqNorm a r + sqNorm b s) - Ideal.ofBits .f32 0x40000000#32 * inner a b r s)
      (Ideal.ofBits .f32 0x00000000#32)))

/-- The whole result array. -/
def all (a b : Pts.Idx → EReal) : Pairs.Idx → EReal := fun i => entry a b (i 0) (i 1)

theorem all_ix2 (a b : Pts.Idx → EReal) (r s : Fin 8192) : all a b (ix2 r s) = entry a b r s := rfl

/-- The host's sum over the coordinates of the squares, read at point `r` on the extended reals, is the squared norm:
    the reduction's initial value (the zero word) plus the sum over the reduced axis. -/
theorem rowSq_apply (a : FVec Ideal Pts .f32) (h' : Pts.ReducesTo [1] ⟨1, ![8192]⟩) (hS : 0 < (⟨0, ![]⟩ : Shape).numel)
    (r : Fin 8192) :
    Host.reduceAdd (F := Ideal) (mulf a a) (constant (F := Ideal) ⟨0, ![]⟩ .f32 0x00000000#32) h' hS (ix1 r) = sqNorm a r := by
  have h : Pts.Reduces [1] ⟨1, ![8192]⟩ := by decide
  simp only [Host.reduceAdd, Ideal.hostReduceAdd_def]
  rw [Ideal.hostReduceAdd_single h' h]
  unfold sqNorm
  refine congrArg (_ + ·) (Finset.sum_congr rfl fun k _ => ?_)
  have e : h.lift (ix1 r) k = ix2 r k :=
    funext fun d => Fin.ext (by match d with | ⟨0, _⟩ => rfl | ⟨1, _⟩ => rfl)
  show a (h.lift (ix1 r) k) * a (h.lift (ix1 r) k) = _
  rw [e]
  rfl

end Cert.NegLogDist

end
-- ==== Proof.RefIsSpec.lean ====
/-
  The reference computes the specification.

  Read one operation at a time, the reference's result at `(r, s)` is
  `-(log1p (max ((‖a_r‖² + ‖b_s‖²) - 2 · ⟨a_r, b_s⟩) 0))` with the squared norms the host's sums over the coordinate axis
  (from the zero word) and the inner product the host's `dot_general` contracted over the same axis: term for term the
  specification, once the indices the layout operations compose are seen to be `(r, k)` and `(s, k)`.
-/
import proofs.«135516_j57543971832354_2_alg».proof.Proof.Gen.ReferenceIdeal.Read
import proofs.«135516_j57543971832354_2_alg».proof.Proof.Spec

noncomputable section

open scoped BigOperators

namespace Cert.ReferenceIdeal.RefValue

open Cert.ReferenceIdeal Cert.ReferenceIdeal.Read Idealize.ShloMosaic Idealize.ShloMosaic.ValueIdx

/-- The first squared norm's operand index: row `r` of the pair, coordinate `k`. -/
theorem idx_sq1 (r s : Fin 8192) (k : Fin 1024) :
    idx_main_v1 (idx_main_v2 (idx_main_v7 (ix2 r s))) k = ix2 r k :=
  funext fun d => Fin.ext (by match d with | ⟨0, _⟩ => rfl | ⟨1, _⟩ => rfl)

/-- The second squared norm's operand index: row `s` of the pair, coordinate `k`. -/
theorem idx_sq2 (r s : Fin 8192) (k : Fin 1024) :
    idx_main_v4 (idx_main_v5 (idx_main_v8 (ix2 r s))) k = ix2 s k :=
  funext fun d => Fin.ext (by match d with | ⟨0, _⟩ => rfl | ⟨1, _⟩ => rfl)

/-- The contraction's left operand index. -/
theorem idx_l (r s : Fin 8192) (k : Fin 1024) : lidx_main_v6 (ix2 r s) k = ix2 r k :=
  funext fun d => Fin.ext (by match d with | ⟨0, _⟩ => rfl | ⟨1, _⟩ => rfl)

/-- The contraction's right operand index. -/
theorem idx_r (r s : Fin 8192) (k : Fin 1024) : ridx_main_v6 (ix2 r s) k = ix2 s k :=
  funext fun d => Fin.ext (by match d with | ⟨0, _⟩ => rfl | ⟨1, _⟩ => rfl)

/-- The reference's last stage is the specification of its two arguments. -/
theorem result_eq (a b : FVec Ideal S8192x1024 .f32) :
    val_main_v16 (F := Ideal) a b = Cert.NegLogDist.all a b := by
  funext i
  obtain ⟨r, s, rfl⟩ : ∃ (r s : Fin 8192), i = ix2 r s := ⟨i 0, i 1, eq_ix2 i⟩
  rw [Cert.NegLogDist.all_ix2]
  rw [val_main_v16_apply, val_main_v15_apply, val_main_v14_apply, val_main_v12_apply, val_main_v9_apply,
    val_main_v7_apply, val_main_v2_apply, val_main_v1_apply, val_main_v8_apply, val_main_v5_apply, val_main_v4_apply,
    val_main_v11_apply, val_main_v10_apply, val_main_cst_1_apply, val_main_v6_apply, val_main_v13_apply,
    val_main_cst_2_apply, val_main_cst_apply, val_main_cst_0_apply]
  simp only [val_main_v0_apply, val_main_v3_apply, idx_sq1, idx_sq2, idx_l, idx_r, Ideal.hostNegf_def, Ideal.negf_def,
    Ideal.hostUnary_log1p_def, Ideal.maximumf_def, Ideal.subf_def, Ideal.addf_def, Ideal.mulf_def, Ideal.ofBits_def]
  rfl

end Cert.ReferenceIdeal.RefValue

end
-- ==== Proof.HostPrefix.lean ====
/-
  What the region finds in the arrays its windows stage.

  Before the region the program squares each array of points, sums the squares over the coordinate axis and lays the sums
  out as a column [8192, 1] (for the first array) and, transposed, as a row [1, 8192] (for the second); and it copies
  each array of points in a narrower format, which on the extended reals is the identity. So the column at `(r, 0)` is the
  squared norm of point `r` of the first array, the row at `(0, s)` that of point `s` of the second, and the two copies are
  the arrays themselves.
-/
import proofs.«135516_j57543971832354_2_alg».proof.Proof.Gen.KernelIdeal.Frame
import proofs.«135516_j57543971832354_2_alg».proof.Proof.Spec
import Idealize.ShloMosaic.Lib.StableHlo.Run
import Idealize.ShloMosaic.Lib.Pipeline.Value
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The column of squared norms, as the operations that wrote it. -/
theorem norms1_eq (c : Dev nD) :
    (V m c main_v2 : S8192x1.Idx → EReal)
      = broadcastInDim S8192x1 ![0] Facts₀.bcast_S8192_S8192x1_0
          (Host.reduceAdd (F := Ideal) (mulf (m ((c : Thread nD τ).loc main_arg0)) (m ((c : Thread nD τ).loc main_arg0)))
            (constant (F := Ideal) S_ .f32 0x00000000#32) Facts₀.reducesTo_S8192x1024_S8192_d1 Facts₀.h_S_) := by
  dsimp only [Gen.V, Gen.hostOps0]; after_results

/-- The row of squared norms, as the operations that wrote it. -/
theorem norms2_eq (c : Dev nD) :
    (V m c main_v6 : S1x8192.Idx → EReal)
      = transpose S1x8192 [1, 0]
          (broadcastInDim S8192x1 ![0] Facts₀.bcast_S8192_S8192x1_0
            (Host.reduceAdd (F := Ideal) (mulf (m ((c : Thread nD τ).loc main_arg1)) (m ((c : Thread nD τ).loc main_arg1)))
              (constant (F := Ideal) S_ .f32 0x00000000#32) Facts₀.reducesTo_S8192x1024_S8192_d1 Facts₀.h_S_))
          Facts₀.transposes_S8192x1_S1x8192_1_0 := by
  dsimp only [Gen.V, Gen.hostOps0]; after_results

/-- The first array's narrower copy is the array. -/
theorem pts1_eq (c : Dev nD) :
    (V m c main_v7 : S8192x1024.Idx → EReal) = m ((c : Thread nD τ).loc main_arg0) := by
  dsimp only [Gen.V, Gen.hostOps0]; after_results; rfl

/-- The second array's narrower copy is the array. -/
theorem pts2_eq (c : Dev nD) :
    (V m c main_v8 : S8192x1024.Idx → EReal) = m ((c : Thread nD τ).loc main_arg1) := by
  dsimp only [Gen.V, Gen.hostOps0]; after_results; rfl

/-- The column at `(r, 0)` is the squared norm of point `r` of the first array. -/
theorem norms1_apply (c : Dev nD) (r : Fin 8192) :
    (V m c main_v2 : S8192x1.Idx → EReal) (ix2 r (0 : Fin 1))
      = Cert.NegLogDist.sqNorm (m ((c : Thread nD τ).loc main_arg0)) r := by
  refine (congrFun (norms1_eq m c) _).trans ?_
  refine (broadcastInDim_apply _ _ _ (ix2 r (0 : Fin 1)) (ix1 r) (fun a => ?_)).trans
    (Cert.NegLogDist.rowSq_apply _ _ _ r)
  match a with
  | ⟨0, _⟩ => show r.val = if (8192 : Nat) = 1 then 0 else r.val; rw [if_neg (by decide)]

/-- The row at `(0, s)` is the squared norm of point `s` of the second array. -/
theorem norms2_apply (c : Dev nD) (s : Fin 8192) :
    (V m c main_v6 : S1x8192.Idx → EReal) (ix2 (0 : Fin 1) s)
      = Cert.NegLogDist.sqNorm (m ((c : Thread nD τ).loc main_arg1)) s := by
  refine (congrFun (norms2_eq m c) _).trans ?_
  refine (transpose_ix2_apply _ _ (0 : Fin 1) s).trans ?_
  refine (broadcastInDim_apply _ _ _ (ix2 s (0 : Fin 1)) (ix1 s) (fun a => ?_)).trans
    (Cert.NegLogDist.rowSq_apply _ _ _ s)
  match a with
  | ⟨0, _⟩ => show s.val = if (8192 : Nat) = 1 then 0 else s.val; rw [if_neg (by decide)]

end Cert.KernelIdeal.Entry

end
-- ==== Proof.LibColumnBroadcast.lean ====
/-
  A column broadcast across the lanes, read at an index.

  A `[a, 1]` array (one value per row) broadcast to `[a, b]` holds, at `(p, c)`, the value of row `p`: every
  column of the result is the operand's one column.
-/
import Idealize.ShloMosaic.Lib.Pipeline.Value
import Idealize.ShloMosaic.Lib.ValueIdx

noncomputable section

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.Payload.lean ====
/-
  The kernel body's arithmetic at one entry of its block.

  The body takes a [1024, 1024] block of each array of points, a [1024, 1] column of squared norms and a [1, 1024] row of
  squared norms, and stores, at `(p, q)`,
  `0 - log1p (max ((n₁ p + n₂ q) - 2 · ∑ k, x p k · y q k) 0)`:
  the column and the row are broadcast across the block, and the matrix product into a zero accumulator contracts the
  two blocks' coordinate axes, so its entry at `(p, q)` is the inner product of row `p` of the first block with row `q`
  of the second.
-/
import proofs.«135516_j57543971832354_2_alg».proof.Proof.Gen.KernelIdeal.Skeleton
import proofs.«135516_j57543971832354_2_alg».proof.Proof.LibColumnBroadcast
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The left operand's row coordinate is the output's row. -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The left operand's second coordinate is the contracted one. -/
theorem lhs_contr (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

/-- The right operand's row coordinate is the output's COLUMN: the product is against the second block transposed. -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The right operand's second coordinate is the contracted one. -/
theorem rhs_contr (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The matrix product into the zero accumulator, at `(p, q)`: the inner product of row `p` of the first block with row `q`
    of the second. -/
theorem cross_apply (x y : FVec Ideal S1024x1024 .bf16) (p q : Fin 1024) :
    matmul dot_S1024x1024_S1024x1024_S1024x1024_1_1_0_0_n_n none x y (constant (F := Ideal) S1024x1024 .f32 0x00000000#32) (ix2 p q)
      = ∑ k : Fin 1024, x (ix2 p k) * y (ix2 q k) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun a => Fin.ext (by
      match a with
      | ⟨0, _⟩ => exact lhs_row _ _
      | ⟨1, _⟩ => exact (lhs_contr _ _).trans hk)
  have er : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun a => Fin.ext (by
      match a with
      | ⟨0, _⟩ => exact rhs_row _ _
      | ⟨1, _⟩ => exact (rhs_contr _ _).trans hk)
  rw [el, er]

/-- The stored value at `(p, q)` of the block. -/
theorem stored_apply (x y : Vec Ideal S1024x1024 .bf16) (n₁ : Vec Ideal S1024x1 .f32) (n₂ : Vec Ideal S1x1024 .f32)
    (p q : Fin 1024) :
    k0_pay1 x y n₁ n₂ (ix2 p q)
      = Ideal.ofBits .f32 0x00000000#32
          - Ideal.log1p (max ((n₁ (ix2 p (0 : Fin 1)) + n₂ (ix2 (0 : Fin 1) q))
              - Ideal.ofBits .f32 0x40000000#32 * ∑ k : Fin 1024, x (ix2 p k) * y (ix2 q k))
            (Ideal.ofBits .f32 0x00000000#32)) := by
  unfold k0_pay1
  show Ideal.ofBits .f32 0x00000000#32
      - Ideal.log1p (max ((broadcastTo S1024x1024 (shapeCast S1024x1 n₁ _) _ (ix2 p q)
            + broadcastTo S1024x1024 (shapeCast S1x1024 n₂ _) _ (ix2 p q))
          - Ideal.ofBits .f32 0x40000000#32
            * matmul dot_S1024x1024_S1024x1024_S1024x1024_1_1_0_0_n_n none (shapeCast S1024x1024 x _) (shapeCast S1024x1024 y _)
                (constant (F := Ideal) S1024x1024 .f32 0x00000000#32) (ix2 p q))
        (Ideal.ofBits .f32 0x00000000#32)) = _
  rw [shapeCast_self, shapeCast_self, shapeCast_self, shapeCast_self, cross_apply,
    broadcastTo_a1_ab_apply, broadcastTo_1b_ab_apply]

end Cert.KernelIdeal.Body

end
-- ==== Proof.Blocks.lean ====
/-
  From blocks to the whole array.

  The grid is 8 × 8. At point `(I, J)` the body sees rows `1024·I …` of the first array of points and of the column of
  squared norms, rows `1024·J …` of the second array and the matching stretch of the row of squared norms, and writes the
  [1024, 1024] block at `(I, J)` of the result. Entry `(p, q)` of that block is the pair `(1024·I + p, 1024·J + q)`, and the
  body's arithmetic there is the specification's at that pair (`0 - x` being `-x`). The 64 blocks tile the result: the
  point that covers row `r` and column `s` is `(r / 1024, s / 1024)`. So the result array after the run is the specification
  of the two arguments.
-/
import proofs.«135516_j57543971832354_2_alg».proof.Proof.Gen.KernelIdeal.Value
import proofs.«135516_j57543971832354_2_alg».proof.Proof.HostPrefix
import proofs.«135516_j57543971832354_2_alg».proof.Proof.Payload
import proofs.«135516_j57543971832354_2_alg».proof.Proof.Spec

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- How the five index maps move over the grid, decided at its 64 points: the first array's blocks and the column's follow
    the result's row of blocks, the second array's and the row's follow its column of blocks, and each has one block along
    its other axis. -/
theorem index_maps : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every block of the result is some point's. -/
theorem index_onto : ∀ (I J : Fin 8), ∃ t : Fin cfg0.N, win0_4.index t = ![I.val, J.val] :=
  (by decide +kernel : ∀ (I J : Fin 8), ∃ t : Fin grid0.N, win0_4.index t = ![I.val, J.val])

/-- What point `t` writes back is block `t` of the specification of the two arguments. -/
theorem flushed_eq (c : Dev nD) (t : Fin cfg0.N) :
    (dats m 0 c).flushed 4 t = ((cfg0.win 4).blk t).view.read (Elt Ideal)
      (Cert.NegLogDist.all (m ((c : Thread nD τ).loc main_arg0)) (m ((c : Thread nD τ).loc main_arg1))) := by
  rw [Value.flushed4]
  unfold out0_4
  rw [View.canon_unit_zero zero_offsets]
  simp only [View.ld_unit_zero (S := S1024x1024) zero_offsets, View.ld_unit_zero (S := S1024x1) zero_offsets,
    View.ld_unit_zero (S := S1x1024) zero_offsets]
  obtain ⟨e00, e01, e10, e11, e20, e21, e30, e31, b0, b1⟩ := index_maps t
  funext j
  obtain ⟨p, q, rfl⟩ : ∃ (p q : Fin 1024), j = ix2 p q := ⟨j 0, j 1, eq_ix2 j⟩
  have hp : p.val < 1024 := p.isLt
  have hq : q.val < 1024 := q.isLt
  -- the pair this entry of the block is
  let r : Fin 8192 := ⟨win0_4.index t (0 : Fin 2) * 1024 + p.val, by omega⟩
  let s : Fin 8192 := ⟨win0_4.index t (1 : Fin 2) * 1024 + q.val, by omega⟩
  show k0_pay1 (iblk m c 0 t) (iblk m c 1 t) (iblk m c 2 t) (iblk m c 3 t) (ix2 p q)
    = Cert.NegLogDist.all (m ((c : Thread nD τ).loc main_arg0)) (m ((c : Thread nD τ).loc main_arg1))
        (((cfg0.win 4).blk t).view.emb (ix2 p q))
  have hpair : ((cfg0.win 4).blk t).view.emb (ix2 p q) = ix2 r s := funext fun a => Fin.ext (by
    match a with
    | ⟨0, _⟩ => show win0_4.index t (0 : Fin 2) * 1024 + 1 * p.val = win0_4.index t (0 : Fin 2) * 1024 + p.val; omega
    | ⟨1, _⟩ => show win0_4.index t (1 : Fin 2) * 1024 + 1 * q.val = win0_4.index t (1 : Fin 2) * 1024 + q.val; omega)
  rw [hpair, Cert.NegLogDist.all_ix2]
  refine (Body.stored_apply _ _ _ _ p q).trans ?_
  -- each input block read where the result's block says
  have h2 : iblk m c 2 t (ix2 p (0 : Fin 1)) = Cert.NegLogDist.sqNorm (m ((c : Thread nD τ).loc main_arg0)) r := by
    show (V m c main_v2 : S8192x1.Idx → EReal) (((cfg0.win 2).blk t).view.emb (ix2 p (0 : Fin 1))) = _
    rw [show ((cfg0.win 2).blk t).view.emb (ix2 p (0 : Fin 1)) = ix2 r (0 : Fin 1) from funext fun a => Fin.ext (by
      match a with
      | ⟨0, _⟩ => show win0_2.index t (0 : Fin 2) * 1024 + 1 * p.val = win0_4.index t (0 : Fin 2) * 1024 + p.val; omega
      | ⟨1, _⟩ => show win0_2.index t (1 : Fin 2) * 1 + 1 * 0 = 0; omega)]
    exact Entry.norms1_apply m c r
  have h3 : iblk m c 3 t (ix2 (0 : Fin 1) q) = Cert.NegLogDist.sqNorm (m ((c : Thread nD τ).loc main_arg1)) s := by
    show (V m c main_v6 : S1x8192.Idx → EReal) (((cfg0.win 3).blk t).view.emb (ix2 (0 : Fin 1) q)) = _
    rw [show ((cfg0.win 3).blk t).view.emb (ix2 (0 : Fin 1) q) = ix2 (0 : Fin 1) s from funext fun a => Fin.ext (by
      match a with
      | ⟨0, _⟩ => show win0_3.index t (0 : Fin 2) * 1 + 1 * 0 = 0; omega
      | ⟨1, _⟩ => show win0_3.index t (1 : Fin 2) * 1024 + 1 * q.val = win0_4.index t (1 : Fin 2) * 1024 + q.val; omega)]
    exact Entry.norms2_apply m c s
  have h0 : ∀ k : Fin 1024, iblk m c 0 t (ix2 p k) = m ((c : Thread nD τ).loc main_arg0) (ix2 r k) := fun k => by
    show (V m c main_v7 : S8192x1024.Idx → EReal) (((cfg0.win 0).blk t).view.emb (ix2 p k)) = _
    rw [show ((cfg0.win 0).blk t).view.emb (ix2 p k) = ix2 r k from funext fun a => Fin.ext (by
      match a with
      | ⟨0, _⟩ => show win0_0.index t (0 : Fin 2) * 1024 + 1 * p.val = win0_4.index t (0 : Fin 2) * 1024 + p.val; omega
      | ⟨1, _⟩ => show win0_0.index t (1 : Fin 2) * 1024 + 1 * k.val = k.val; omega)]
    exact congrFun (Entry.pts1_eq m c) _
  have h1 : ∀ k : Fin 1024, iblk m c 1 t (ix2 q k) = m ((c : Thread nD τ).loc main_arg1) (ix2 s k) := fun k => by
    show (V m c main_v8 : S8192x1024.Idx → EReal) (((cfg0.win 1).blk t).view.emb (ix2 q k)) = _
    rw [show ((cfg0.win 1).blk t).view.emb (ix2 q k) = ix2 s k from funext fun a => Fin.ext (by
      match a with
      | ⟨0, _⟩ => show win0_1.index t (0 : Fin 2) * 1024 + 1 * q.val = win0_4.index t (1 : Fin 2) * 1024 + q.val; omega
      | ⟨1, _⟩ => show win0_1.index t (1 : Fin 2) * 1024 + 1 * k.val = k.val; omega)]
    exact congrFun (Entry.pts2_eq m c) _
  rw [h2, h3, Finset.sum_congr rfl (fun k _ => by rw [h0 k, h1 k])]
  unfold Cert.NegLogDist.entry Cert.NegLogDist.inner
  rw [Ideal.ofBits_zero_f32, zero_sub]

/-- An index of the result is in point `t`'s block iff each coordinate is in the block's range on its axis. -/
theorem mem_blk (t : Fin cfg0.N) (i : S8192x8192.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v9).slice (win0_4.rect t)).set ↔ _
  rw [View.set_slice_whole, Rect.mem_set_unit]
  exact Iff.rfl

/-- The 64 blocks cover the result: the pair `(r, s)` is in the block of the point at `(r / 1024, s / 1024)`. -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := index_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- The result array after the run is the specification of the two arguments. -/
theorem final (c : Dev nD) :
    (dats m 0 c).arrAt 4 cfg0.N
      = Cert.NegLogDist.all (m ((c : Thread nD τ).loc main_arg0)) (m ((c : Thread nD τ).loc main_arg1)) :=
  (dats m 0 c).arrAt_eq_of_cover 4 _ (fun t _ => flushed_eq m c t) cover

/-- The kernel's run: every weakly fair execution terminates with the result array at the specification of the arguments
    and the arguments unchanged. -/
theorem run : θ_run defs (onTc (τ := τ) (main (F := Ideal))) ⟨m, fun _ => 0, ρ⟩ fun r => ∀ c : Dev nD,
      r.2.mem ((c : Thread nD τ).loc main_v9)
        = Cert.NegLogDist.all (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  The negative log of one plus the clamped squared distance, pair by pair: the kernel against its reference.

  Both programs take two arrays of 8192 points in 1024 coordinates and produce, for every pair `(r, s)`,
  `-log(1 + max(‖a_r‖² + ‖b_s‖² - 2·⟨a_r, b_s⟩, 0))`. The reference does it on whole arrays. The kernel program first sums
  the squares of each array's coordinates, into a column for the first array and a row for the second, copies the two arrays
  in a narrower format (the identity on the extended reals), and then, on an 8 × 8 grid, computes each [1024, 1024] block of
  the result from 1024 points of each array and the matching stretches of the column and the row, the inner products by one
  matrix product into a zero accumulator. The two results are the same function of the arguments, term for term: the only
  rewriting is `0 - x = -x`, which holds on all extended reals, so the finiteness of the inputs is never used.

  The idealization rewrote nothing, so the kernel's idealized program is its own text read on the extended reals. The three
  frames are the generated ones (the reference's being its generated run with the result dropped).
-/
import proofs.«135516_j57543971832354_2_alg».proof.Defs
import proofs.«135516_j57543971832354_2_alg».proof.Proof.Gen.Kernel
import proofs.«135516_j57543971832354_2_alg».proof.Proof.Gen.Kernel.Frame
import proofs.«135516_j57543971832354_2_alg».proof.Proof.Gen.KernelIdeal
import proofs.«135516_j57543971832354_2_alg».proof.Proof.Gen.KernelIdeal.Frame
import proofs.«135516_j57543971832354_2_alg».proof.Proof.Gen.KernelIdeal.Value
import proofs.«135516_j57543971832354_2_alg».proof.Proof.Gen.ReferenceIdeal
import proofs.«135516_j57543971832354_2_alg».proof.Proof.Gen.ReferenceIdeal.Run
import proofs.«135516_j57543971832354_2_alg».proof.Proof.Gen.ReferenceIdeal.Read
import proofs.«135516_j57543971832354_2_alg».proof.Proof.Gen.Pre_finite_inputs
import proofs.«135516_j57543971832354_2_alg».proof.Proof.RefIsSpec
import proofs.«135516_j57543971832354_2_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- On the extended reals, from memories that agree on the two arrays of points, the kernel's result array and the
    reference's both end at the specification of those arrays. -/
theorem algebraic : Cert.algebraic_KernelIdeal_ReferenceIdeal := by
  intro m ρ m' ρ' _ hagree
  refine ⟨fun c => Cert.NegLogDist.all (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
